-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel

variable [Facts]

def fn {F : FTy → Type} [FloatOps F] (main_arg0 : FVec F S100000x32 .f32) (main_arg1 : IVec S1600000 32) (main_arg2 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  main_v3
-- ==== Kernel.lean ====
abbrev S100000x32 : Shape := ⟨2, ![100000, 32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x32 : Shape := ⟨2, ![5000, 32]⟩
abbrev S5000x1 : Shape := ⟨2, ![5000, 1]⟩
abbrev S1600000x32 : Shape := ⟨2, ![1600000, 32]⟩

abbrev nBuf : Space → Nat
  | .hbm => 32
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S1600000, .f32⟩
  | .hbm, ⟨5, _⟩ => ⟨S_, .f32⟩
  | .hbm, ⟨6, _⟩ => ⟨S100000, .f32⟩
  | .hbm, ⟨7, _⟩ => ⟨S1600000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x32, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x1, .f32⟩
  | .local _ .vmem, ⟨11, _⟩ => ⟨S5000x1, .f32⟩
  | .local _ .vmem, ⟨12, _⟩ => ⟨S5000x32, .f32⟩
  | .local _ .vmem, ⟨13, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bcast_S_S100000x32 : S_.BroadcastsInDim S100000x32 (![] : Fin 0 → Fin S100000x32.rank)
  shapeCasts_S5000x32_S5000x32 : S5000x32.ShapeCasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩

abbrev nBuf : Space → Nat
  | .hbm => 64
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S1600000, .f32⟩
  | .hbm, ⟨5, _⟩ => ⟨S_, .f32⟩
  | .hbm, ⟨6, _⟩ => ⟨S100000, .f32⟩
  | .hbm, ⟨7, _⟩ => ⟨S1600000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x32, .f32⟩
  | .hbm, ⟨18, _⟩ => ⟨S100000x32, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S_, .f32⟩
  | .hbm, ⟨29, _⟩ => ⟨S100000x32, .f32⟩
  | .hbm, ⟨30, _⟩ => ⟨S1600000x1, .i32⟩
  | .hbm, ⟨31, _⟩ => ⟨S100000x32, .f32⟩
  | .hbm, ⟨32, _⟩ => ⟨S100000x32, .f32⟩
  | .hbm, ⟨33, _⟩ => ⟨S100000x32, .f32⟩
  | .hbm, ⟨34, _⟩ => ⟨S100000x32, .f32⟩
  | .hbm, ⟨35, _⟩ => ⟨S_, .f32⟩
  | .hbm, ⟨36, _⟩ => ⟨S100000x32, .f32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S100000x32, .f32⟩
  | .hbm, ⟨54, _⟩ => ⟨S100000x32, .f32⟩
  | .hbm, ⟨55, _⟩ => ⟨S100000x32, .f32⟩
  | .hbm, ⟨56, _⟩ => ⟨S_, .f32⟩
  | .hbm, ⟨57, _⟩ => ⟨S100000x32, .f32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S_, .f32⟩
  | .hbm, ⟨62, _⟩ => ⟨S100000x32, .f32⟩
  | .hbm, ⟨63, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.NamedRun.lean ====
/-
  The idealized kernel's run with its result array NAMED.

  @main is six segments: three stretches of host operations (the in-degree, its clamp from below by one, the
  power `-1/2` and the column form), the prescale region, a stretch of thirteen host operations (the gather of
  the scaled rows along the edges' sources and the scatter-add onto their destinations), and the combine region.
  The buffer contents at each boundary are a fold from the launch memory (`W0 … W6`); every weakly fair execution
  ends with every unscoped buffer at the last boundary's contents `W6`. The frame theorem reads the three
  argument arrays out of that final state; here the result array `main_v19` is read out of it as well, so that
  its value can be computed from the fold.
-/
import proofs.«126729_j42502996361881_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Named

end
-- ==== Proof.LibColumnBroadcast.lean ====
/-
  A column broadcast along its rows, read at an index.

  A `[a, 1]` array broadcast to `[a, b]` holds, at `(p, q)`, the column's entry of row `p`: the broadcast keeps
  the coordinate of the axis of extent `a` and reads coordinate `0` on the unit axis. (For `a = 1` the kept
  coordinate is `0` as well, and the two readings coincide.)
-/
import Idealize.ShloMosaic.Lib.ValueIdx
import Idealize.ShloMosaic.Lib.Pipeline.Value

namespace Cert.LibColumnBroadcast

open Idealize.ShloMosaic Idealize.ShloMosaic.ValueIdx

/-- A `[a, 1]` column broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Payloads.lean ====
/-
  The two kernel bodies' stored values, entry by entry, on the extended reals.

  The prescale body stores `x * d`: the feature block times the `D^(-1/2)` column of its rows, the column
  broadcast along each row. The combine body stores `(f * f - (a * d) * (a * d)) * (1/2)` with `a` the block
  of the neighbourhood sums, `d` the same column and `f` the feature block. Both are pointwise in the block's
  `(row, lane)` index except for the column, which is read at `(row, 0)`.
-/
import proofs.«126729_j42502996361881_1_alg».proof.Proof.Gen.KernelIdeal.Skeleton
import proofs.«126729_j42502996361881_1_alg».proof.Proof.LibColumnBroadcast

noncomputable section

namespace Cert.KernelIdeal.Payload

open Cert.KernelIdeal Cert.KernelIdeal.Gen Cert.LibColumnBroadcast
open Idealize.ShloMosaic Idealize.ShloMosaic.ValueIdx

/-- The prescale body's stored value at `(p, q)`: the feature entry times its row's column entry. -/
theorem prescale_apply (x : Vec Ideal S5000x32 .f32) (d : Vec Ideal S5000x1 .f32) (p : Fin 5000) (q : Fin 32) :
    k0_pay1 x d (ix2 p q) = x (ix2 p q) * d (ix2 p (0 : Fin 1)) := by
  unfold k0_pay1
  rw [mulf_apply, shapeCast_self, broadcastTo_a1_ab_apply]

/-- The combine body's stored value at `(p, q)`: half the difference of the squares of the feature entry and of
    the neighbourhood sum scaled by its row's column entry. -/
theorem combine_apply (a : Vec Ideal S5000x32 .f32) (d : Vec Ideal S5000x1 .f32) (f : Vec Ideal S5000x32 .f32)
    (p : Fin 5000) (q : Fin 32) :
    k1_pay1 a d f (ix2 p q)
      = (f (ix2 p q) * f (ix2 p q)
          - (a (ix2 p q) * d (ix2 p (0 : Fin 1))) * (a (ix2 p q) * d (ix2 p (0 : Fin 1))))
        * Ideal.ofBits .f32 0x3F000000#32 := by
  unfold k1_pay1
  rw [mulf_apply, subf_apply, mulf_apply, mulf_apply, mulf_apply, shapeCast_self, shapeCast_self,
    broadcastTo_a1_ab_apply, broadcast_apply]
  rfl

end Cert.KernelIdeal.Payload

end
-- ==== Proof.PrescaleValue.lean ====
/-
  The prescale region's output array, as one function of the arrays the region finds.

  The grid has 20 points; point `t` stages rows `5000 t … 5000 t + 4999` of the feature table (all 32 lanes) and
  the same rows of the `D^(-1/2)` column, and writes the same rows of the output. So what point `t` writes back
  is block `t` of the whole-array function `i ↦ feat i * d (row i, 0)`, the 20 blocks cover the array, and the
  output array ends holding that function.
-/
import proofs.«126729_j42502996361881_1_alg».proof.Proof.Gen.KernelIdeal.Frame
import proofs.«126729_j42502996361881_1_alg».proof.Proof.Payloads
import Idealize.ShloMosaic.Lib.Pipeline.Value

set_option maxRecDepth 16384

noncomputable section

namespace Cert.KernelIdeal.Prescale

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The column index of an entry's row: `(r, q) ↦ (r, 0)`. -/
abbrev colOf (i : S100000x32.Idx) : S100000x1.Idx :=
  ix2 (n0 := 100000) (n1 := 1) ⟨(i 0).val, idx2_lt0 i⟩ 0

/-- The table scaled row by row: entry `(r, q)` of `A` times the column's entry of row `r`. -/
def scaled (A : S100000x32.Idx → Elt Ideal .f32) (D : S100000x1.Idx → Elt Ideal .f32) : S100000x32.Idx → Elt Ideal .f32 :=
  fun i => A i * D (colOf i)

/-- The three windows move together: at point `t` each stages block-row `t`, and the column window's second block
    index is `0`. Decided over the 20 points. -/
theorem block_rows : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 19
    ∧ win0_2.index t (1 : Fin 2) = 0 :=
  (by decide +kernel : ∀ t : Fin grid0.N, _)

/-- Every block-row is some point's. -/
theorem block_row_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the scaled table. -/
theorem flushed_eq (c : Dev nD) (t : Fin cfg0.N) :
    (dat0 V c).flushed 2 t = ((cfg0.win 2).blk t).view.read (Elt Ideal) (scaled (V c main_arg0) (V c main_v7)) := by
  show (cfg0.win 2).cut (grid0.coords t) ((dat0 V c).after 2 t) = _
  rw [after0_2]
  unfold out0_2
  rw [View.canon_unit_zero zero_offsets]
  simp only [View.ld_unit_zero (S := S5000x32) zero_offsets, View.ld_unit_zero (S := S5000x1) zero_offsets]
  obtain ⟨e0, e1, e2, e3, e4, e5⟩ := block_rows t
  funext j
  obtain ⟨p, q, rfl⟩ : ∃ (p : Fin 5000) (q : Fin 32), j = ix2 p q := ⟨j 0, j 1, eq_ix2 j⟩
  show k0_pay1 (iblk0 V c 0 t) (iblk0 V c 1 t) (ix2 p q)
    = scaled (V c main_arg0) (V c main_v7) (((cfg0.win 2).blk t).view.emb (ix2 p q))
  refine (Payload.prescale_apply _ _ p q).trans ?_
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 32 + 1 * q.val = win0_2.index t (1 : Fin 2) * 32 + 1 * q.val; omega
  have h1 : ((cfg0.win 1).blk t).view.emb (ix2 p (0 : Fin 1)) = colOf (((cfg0.win 2).blk t).view.emb (ix2 p q)) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  exact congrArg₂ (fun a b : EReal => a * b) (congrArg (V c main_arg0) h0) (congrArg (V c main_v7) h1)

/-- An index of the array is in point `t`'s block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v8).slice (win0_2.rect t)).set ↔ _
  rw [View.set_slice_whole, Rect.mem_set_unit]
  exact Iff.rfl

/-- The 20 blocks cover the array: entry `(r, q)` lies in the block of point `r / 5000`. -/
theorem covered (i : S100000x32.Idx) :
    ∃ t : Fin cfg0.N, (cfg0.win 2).flush t = true ∧ i ∈ ((cfg0.win 2).blk t).view.set := by
  have hi0 : (i 0).val < 100000 := idx2_lt0 i
  have hi1 : (i 1).val < 32 := idx2_lt1 i
  obtain ⟨t, ht⟩ := block_row_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The output array after the region: the scaled table of the arrays the region found. -/
theorem final (c : Dev nD) : (dat0 V c).arrAt 2 cfg0.N = scaled (V c main_arg0) (V c main_v7) :=
  (dat0 V c).arrAt_eq_of_cover 2 (scaled (V c main_arg0) (V c main_v7)) (fun t _ => flushed_eq V c t) (covered)

end Cert.KernelIdeal.Prescale

end
-- ==== Proof.CombineValue.lean ====
/-
  The combine region's output array, as one function of the arrays the region finds.

  The grid has 20 points; point `t` stages rows `5000 t … 5000 t + 4999` of the feature table, of the
  neighbourhood-sum table and of the `D^(-1/2)` column, and writes the same rows of the result. What point `t`
  writes back is block `t` of `i ↦ (f i * f i - (g i * d (row i, 0)) * (g i * d (row i, 0))) * (1/2)`; the 20 blocks
  cover the array, so the result array ends holding that function.
-/
import proofs.«126729_j42502996361881_1_alg».proof.Proof.PrescaleValue

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Prescale (colOf zero_offsets)

variable (V : (c : Dev nD) → (b : Ref sig .tc) → Buf (Elt Ideal) ((c : Thread nD τ).loc b))

/-- Half the difference of squares, entry by entry: `A` the features, `G` the neighbourhood sums, `D` the
    column each row of `G` is scaled by. -/
def combined (A G : S100000x32.Idx → Elt Ideal .f32) (D : S100000x1.Idx → Elt Ideal .f32) : S100000x32.Idx → Elt Ideal .f32 :=
  fun i => (A i * A i - (G i * D (colOf i)) * (G i * D (colOf i))) * Ideal.ofBits .f32 0x3F000000#32

/-- The four windows move together: at point `t` each stages block-row `t`, and the column window's second block
    index is `0`. Decided over the 20 points. -/
theorem block_rows : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = 0
    ∧ win1_3.index t (0 : Fin 2) ≤ 19
    ∧ win1_3.index t (1 : Fin 2) = 0 :=
  (by decide +kernel : ∀ t : Fin grid1.N, _)

/-- Every block-row is some point's. -/
theorem block_row_onto : ∀ q0 : Fin 20, ∃ t : Fin cfg1.N, win1_3.index t = ![q0.val, 0] :=
  (by decide +kernel : ∀ q0 : Fin 20, ∃ t : Fin grid1.N, win1_3.index t = ![q0.val, 0])

/-- What point `t` writes back is block `t` of the combined table. -/
theorem flushed_eq (c : Dev nD) (t : Fin cfg1.N) :
    (dat1 V c).flushed 3 t
      = ((cfg1.win 3).blk t).view.read (Elt Ideal) (combined (V c main_arg0) (V c main_v18) (V c main_v7)) := by
  show (cfg1.win 3).cut (grid1.coords t) ((dat1 V c).after 3 t) = _
  rw [after1_3]
  unfold out1_3
  rw [View.canon_unit_zero zero_offsets]
  simp only [View.ld_unit_zero (S := S5000x32) zero_offsets, View.ld_unit_zero (S := S5000x1) zero_offsets]
  obtain ⟨e0, e1, e2, e3, e4, e5, e6, e7⟩ := block_rows t
  funext j
  obtain ⟨p, q, rfl⟩ : ∃ (p : Fin 5000) (q : Fin 32), j = ix2 p q := ⟨j 0, j 1, eq_ix2 j⟩
  show k1_pay1 (iblk1 V c 1 t) (iblk1 V c 2 t) (iblk1 V c 0 t) (ix2 p q)
    = combined (V c main_arg0) (V c main_v18) (V c main_v7) (((cfg1.win 3).blk t).view.emb (ix2 p q))
  refine (Payload.combine_apply _ _ _ p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 32 + 1 * q.val = win1_3.index t (1 : Fin 2) * 32 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 32 + 1 * q.val = win1_3.index t (1 : Fin 2) * 32 + 1 * q.val; omega
  have h2 : ((cfg1.win 2).blk t).view.emb (ix2 p (0 : Fin 1)) = colOf (((cfg1.win 3).blk t).view.emb (ix2 p q)) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 1 + 1 * 0 = 0; omega
  have hf := congrArg (V c main_arg0) h0
  have hg := congrArg (V c main_v18) h1
  have hd := congrArg (V c main_v7) h2
  exact congrArg₂ (fun a b : EReal => a * b)
    (congrArg₂ (fun a b : EReal => a - b) (congrArg₂ (fun a b : EReal => a * b) hf hf)
      (congrArg₂ (fun a b : EReal => a * b) (congrArg₂ (fun a b : EReal => a * b) hg hd)
        (congrArg₂ (fun a b : EReal => a * b) hg hd))) rfl

/-- An index of the array is in point `t`'s block iff each coordinate is in the block's range on its axis. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v19).slice (win1_3.rect t)).set ↔ _
  rw [View.set_slice_whole, Rect.mem_set_unit]
  exact Iff.rfl

/-- The 20 blocks cover the array: entry `(r, q)` lies in the block of point `r / 5000`. -/
theorem covered (i : S100000x32.Idx) :
    ∃ t : Fin cfg1.N, (cfg1.win 3).flush t = true ∧ i ∈ ((cfg1.win 3).blk t).view.set := by
  have hi0 : (i 0).val < 100000 := idx2_lt0 i
  have hi1 : (i 1).val < 32 := idx2_lt1 i
  obtain ⟨t, ht⟩ := block_row_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The result array after the region: the combined table of the arrays the region found. -/
theorem final (c : Dev nD) :
    (dat1 V c).arrAt 3 cfg1.N = combined (V c main_arg0) (V c main_v18) (V c main_v7) :=
  (dat1 V c).arrAt_eq_of_cover 3 (combined (V c main_arg0) (V c main_v18) (V c main_v7)) (fun t _ => flushed_eq V c t) (covered)

end Cert.KernelIdeal.Combine

end
-- ==== Proof.HostTerms.lean ====
/-
  The host operations of the kernel's @main, as two pure functions of arrays.

  `invSqrtDeg dst` is the `D^(-1/2)` column: the in-degree of every node (a scatter-add of ones along the edges'
  destinations into zeros), clamped from below by one, raised to the power `-1/2`, as a `[100000, 1]` column.
  `edgeSum T src dst` is the sum over incoming edges: row `src e` of the table `T` is gathered for every edge `e`
  (a negative source index is first wrapped by adding the row count) and added into row `dst e` of a zero table.
-/
import proofs.«126729_j42502996361881_1_alg».proof.Proof.Gen.KernelIdeal

noncomputable section

namespace Cert.KernelIdeal.HostTerms

open Cert.KernelIdeal Cert.KernelIdeal.Gen Idealize.ShloMosaic

variable {F : FTy → Type} [FloatOps F]

/-- The in-degree of every node, clamped from below by one, to the power `-1/2`, as a column. -/
def invSqrtDeg (dst : (⟨S1600000, .i32⟩ : BufTy).Contents (Elt F)) : (⟨S100000x1, .f32⟩ : BufTy).Contents (Elt F) :=
  broadcastInDim S100000x1 ![0] bcast_S100000_S100000x1_0
    (Host.powf
      (maximumf (broadcastInDim S100000 ![] bcast_S_S100000 (id (constant S_ .f32 0x3F800000#32)))
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32))))
      (broadcastInDim S100000 ![] bcast_S_S100000 (constant S_ .f32 0xBF000000#32)))

/-- The rows of `T` at the edges' sources, summed into the rows at the edges' destinations. -/
def edgeSum (T : (⟨S100000x32, .f32⟩ : BufTy).Contents (Elt F)) (src dst : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 T
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

end Cert.KernelIdeal.HostTerms

end
-- ==== Proof.FoldHost.lean ====
/-
  The host stretches of @main read at the buffers the two regions stage, for any float values.

  Before the prescale region the three stretches compute the `D^(-1/2)` column from the destinations and touch
  no argument. The prescale region leaves its inputs and the two index arrays as it found them. The stretch
  between the regions gathers and scatter-adds the prescale region's output along the edges and touches neither
  the features nor the column.
-/
import proofs.«126729_j42502996361881_1_alg».proof.Proof.Gen.KernelIdeal.Frame
import proofs.«126729_j42502996361881_1_alg».proof.Proof.HostTerms

set_option maxRecDepth 16384

noncomputable section

namespace Cert.KernelIdeal.FoldHost

open Cert.KernelIdeal Cert.KernelIdeal.Gen Idealize.ShloMosaic Idealize.ShloMosaic.TcCoe Idealize.SL.Sem
open Idealize.ShloMosaic.StableHlo
open Cert.KernelIdeal.HostTerms
open Idealize.ShloMosaic.Pipeline (Dat)

variable {F : FTy → Type} [FloatOps F]
variable (m : (ℓ : Loc nD τ sig) → Buf (Elt F) ℓ) (ρ : Dev nD → PrngReg)

/-! ## Entering the prescale region -/

theorem entry0_feat (c : Dev nD) : V3 m ρ c main_arg0 = m ((c.tc : Thread nD τ).loc main_arg0) := by
  show StableHlo.after hostOps0_2 (StableHlo.after hostOps0_1 (StableHlo.after hostOps0 (W0 m ρ c))) (Proc.devRef .tc main_arg0) = _
  after_results

theorem entry0_src (c : Dev nD) : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results

theorem entry0_dst (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results

theorem entry0_col (c : Dev nD) : V3 m ρ c main_v7 = invSqrtDeg (m ((c.tc : Thread nD τ).loc main_arg2)) := by
  show StableHlo.after hostOps0_2 (StableHlo.after hostOps0_1 (StableHlo.after hostOps0 (W0 m ρ c))) (Proc.devRef .tc main_v7) = _
  after_results
  unfold invSqrtDeg
  rfl

/-! ## Leaving the prescale region: what it does not write -/

theorem exit0_feat (c : Dev nD) : W4 m ρ c (Proc.devRef .tc main_arg0) = m ((c.tc : Thread nD τ).loc main_arg0) :=
  (W4_arr m ρ c 0).trans (((dat0 (V3 m ρ) c).arrAt_in 0 rfl _).trans ((A_eq0 (V3 m ρ) c 0).trans (entry0_feat m ρ c)))

theorem exit0_col (c : Dev nD) : W4 m ρ c (Proc.devRef .tc main_v7) = invSqrtDeg (m ((c.tc : Thread nD τ).loc main_arg2)) :=
  (W4_arr m ρ c 1).trans (((dat0 (V3 m ρ) c).arrAt_in 1 rfl _).trans ((A_eq0 (V3 m ρ) c 1).trans (entry0_col m ρ c)))

theorem exit0_src (c : Dev nD) : W4 m ρ c (Proc.devRef .tc main_arg1) = m ((c.tc : Thread nD τ).loc main_arg1) :=
  (W4_of_ne m ρ c main_arg1 (by decide)).trans (entry0_src m ρ c)

theorem exit0_dst (c : Dev nD) : W4 m ρ c (Proc.devRef .tc main_arg2) = m ((c.tc : Thread nD τ).loc main_arg2) :=
  (W4_of_ne m ρ c main_arg2 (by decide)).trans (entry0_dst m ρ c)

/-! ## Entering the combine region -/

theorem entry1_feat (c : Dev nD) : V5 m ρ c main_arg0 = m ((c.tc : Thread nD τ).loc main_arg0) := by
  show StableHlo.after hostOps1 (W4 m ρ c) (Proc.devRef .tc main_arg0) = _
  after_results
  exact exit0_feat m ρ c

theorem entry1_col (c : Dev nD) : V5 m ρ c main_v7 = invSqrtDeg (m ((c.tc : Thread nD τ).loc main_arg2)) := by
  show StableHlo.after hostOps1 (W4 m ρ c) (Proc.devRef .tc main_v7) = _
  after_results
  exact exit0_col m ρ c

/-- The neighbourhood-sum buffer holds the edge sum of the prescale region's output as that region left it. -/
theorem entry1_sum (c : Dev nD) :
    V5 m ρ c main_v18
      = edgeSum (W4 m ρ c (Proc.devRef .tc main_v8)) (m ((c.tc : Thread nD τ).loc main_arg1)) (m ((c.tc : Thread nD τ).loc main_arg2)) := by
  show StableHlo.after hostOps1 (W4 m ρ c) (Proc.devRef .tc main_v18) = _
  after_results
  rw [exit0_src, exit0_dst]
  unfold edgeSum
  rfl

end Cert.KernelIdeal.FoldHost

end
-- ==== Proof.FoldValue.lean ====
/-
  The result array of the idealized kernel as one function of the argument arrays, on the extended reals.

  The prescale region's output is the scaled table `feat * invSqrtDeg dst`; the stretch between the regions turns
  it into its edge sum; the combine region's output — the result — is the combined table of the features, that
  edge sum and the same column.
-/
import proofs.«126729_j42502996361881_1_alg».proof.Proof.CombineValue
import proofs.«126729_j42502996361881_1_alg».proof.Proof.FoldHost

set_option maxRecDepth 16384

noncomputable section

namespace Cert.KernelIdeal.Fold

open Cert.KernelIdeal Cert.KernelIdeal.Gen Idealize.ShloMosaic Idealize.ShloMosaic.TcCoe Idealize.SL.Sem
open Cert.KernelIdeal.HostTerms
open Idealize.ShloMosaic.Pipeline (Dat)

variable (m : (ℓ : Loc nD τ sig) → Buf (Elt Ideal) ℓ) (ρ : Dev nD → PrngReg)

/-- The prescale region's output array after the region. -/
theorem exit0_scaled (c : Dev nD) :
    W4 m ρ c (Proc.devRef .tc main_v8)
      = Prescale.scaled (m ((c.tc : Thread nD τ).loc main_arg0)) (invSqrtDeg (m ((c.tc : Thread nD τ).loc main_arg2))) := by
  refine (W4_arr m ρ c 2).trans ((Prescale.final (V3 m ρ) c).trans ?_)
  rw [FoldHost.entry0_feat, FoldHost.entry0_col]

/-- The result array after the combine region. -/
theorem result (c : Dev nD) :
    W6 m ρ c (Proc.devRef .tc main_v19)
      = Combine.combined (m ((c.tc : Thread nD τ).loc main_arg0))
          (edgeSum (Prescale.scaled (m ((c.tc : Thread nD τ).loc main_arg0)) (invSqrtDeg (m ((c.tc : Thread nD τ).loc main_arg2))))
            (m ((c.tc : Thread nD τ).loc main_arg1)) (m ((c.tc : Thread nD τ).loc main_arg2)))
          (invSqrtDeg (m ((c.tc : Thread nD τ).loc main_arg2))) := by
  refine (W6_arr m ρ c 3).trans ((Combine.final (V5 m ρ) c).trans ?_)
  rw [FoldHost.entry1_feat, FoldHost.entry1_sum, FoldHost.entry1_col, exit0_scaled]

end Cert.KernelIdeal.Fold

end
-- ==== Proof.CombineLaw.lean ====
/-
  The one algebraic law of this certificate, on the extended reals.

  Write `f` for an entry of the feature table and `B` for the matching entry of the normalised
  neighbourhood sum `D^(-1/2) A D^(-1/2) feat`. The reference forms the two first-order Bernstein factors
  `(f - B) / 2` and `f - (f - B) / 2 = (f + B) / 2` and returns `2` times their product; the kernel returns
  `(f * f - B * B) * (1/2)`. Over the reals both are `(f² - B²) / 2`. Over the extended reals the identity
  still holds for EVERY `B` — at `B = ±∞` both sides are `-∞` — as long as `f` itself is a real number;
  for `f = +∞` and real `B` the two sides differ (`-∞` against `+∞`), so finiteness of the features is used
  and finiteness of `B` is not needed.
-/
import Idealize.ShloMosaic.PureOps.Ideal

noncomputable section

namespace Cert.CombineLaw

open Idealize.ShloMosaic

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- Twice the product of the two Bernstein factors is half the difference of squares, for a real `f` and any
    extended real `B`. -/
theorem two_mul_factors (f : ℝ) (B : EReal) :
    ((2 : ℝ) : EReal) * (Ideal.div ((f : EReal) - B) ((2 : ℝ) : EReal)
        * ((f : EReal) - Ideal.div ((f : EReal) - B) ((2 : ℝ) : EReal)))
      = ((f : EReal) * (f : EReal) - B * B) * ((1 / 2 : ℝ) : EReal) := by
  have h2 : (2 : ℝ) ≠ 0 := by norm_num
  have hpos : (0 : ℝ) < 1 / 2 := by norm_num
  rw [Ideal.div_coe h2]
  induction B using EReal.rec with
  | bot =>
    rw [EReal.coe_sub_bot, EReal.top_mul_coe_of_pos hpos, EReal.sub_top, EReal.top_mul_bot,
      EReal.coe_mul_bot_of_pos (by norm_num : (0 : ℝ) < 2), EReal.bot_mul_bot, ← EReal.coe_mul,
      EReal.sub_top, EReal.bot_mul_coe_of_pos hpos]
  | coe b =>
    rw [← EReal.coe_sub, ← EReal.coe_mul, ← EReal.coe_sub, ← EReal.coe_mul, ← EReal.coe_mul, ← EReal.coe_mul,
      ← EReal.coe_mul, ← EReal.coe_sub, ← EReal.coe_mul]
    congr 1
    ring
  | top =>
    rw [EReal.sub_top, EReal.bot_mul_coe_of_pos hpos, EReal.coe_sub_bot, EReal.bot_mul_top,
      EReal.coe_mul_bot_of_pos (by norm_num : (0 : ℝ) < 2), EReal.top_mul_top, ← EReal.coe_mul,
      EReal.sub_top, EReal.bot_mul_coe_of_pos hpos]

end Cert.CombineLaw

end
-- ==== Proof.ResultEq.lean ====
/-
  The kernel's result array and the reference's result are one function of the argument arrays.

  Both programs compute the same `D^(-1/2)` column `d` from the destinations and the same edge sum `g` of the
  table `feat * d` (the reference computes it twice, once per Bernstein factor; the two copies are one term).
  With `B = g i * d (row i)` the reference's result at `i` is `2 * (((f - B) / 2) * (f - (f - B) / 2))` and the
  kernel's is `(f * f - B * B) * (1/2)`, `f = feat i`: equal for every real `f` by the law of CombineLaw.
-/
import proofs.«126729_j42502996361881_1_alg».proof.Proof.CombineValue
import proofs.«126729_j42502996361881_1_alg».proof.Proof.HostTerms
import proofs.«126729_j42502996361881_1_alg».proof.Proof.CombineLaw
import proofs.«126729_j42502996361881_1_alg».proof.Proof.Gen.ReferenceIdeal.Read

set_option maxRecDepth 16384

noncomputable section

namespace Cert.ResultEq

open Idealize.ShloMosaic Idealize.ShloMosaic.ValueIdx
open Cert.ReferenceIdeal Cert.ReferenceIdeal.Gen Cert.ReferenceIdeal.Read
open Cert.KernelIdeal.HostTerms
open Cert.KernelIdeal (Prescale.scaled Prescale.colOf Combine.combined)

section AnyValues
variable {F : FTy → Type} [FloatOps F]

/-- The kernel's `D^(-1/2)` column is the reference's. -/
theorem col_eq (dst : (⟨S1600000, .i32⟩ : BufTy).Contents (Elt F)) : invSqrtDeg (F := F) dst = val_main_v7 (F := F) dst := by
  unfold invSqrtDeg val_main_v7 val_main_v6 val_main_v5 val_main_v4 val_main_v3 val_main_v2 val_main_v1 val_main_v0 val_main_cst
    val_main_cst_0 val_main_cst_2 val_main_call0_v1 val_main_call0_v0 val_main_cst_1
  rfl

/-- The kernel's edge sum of the reference's scaled table is the reference's neighbourhood sum. -/
theorem sum_eq (x0 : (⟨S100000x32, .f32⟩ : BufTy).Contents (Elt F)) (x1 x2 : (⟨S1600000, .i32⟩ : BufTy).Contents (Elt F)) :
    edgeSum (F := F) (val_main_v9 (F := F) x0 x2) x1 x2 = val_main_v19 (F := F) x0 x1 x2 := by
  unfold edgeSum val_main_v19 val_main_v18 val_main_v17 val_main_cst_4 val_main_v16 val_main_v15 val_main_v14 val_main_v13
    val_main_v12 val_main_c_3 val_main_v11 val_main_v10 val_main_c
  rfl

/-- The reference's second copy of the neighbourhood sum is its first. -/
theorem second_copy (x0 : (⟨S100000x32, .f32⟩ : BufTy).Contents (Elt F)) (x1 x2 : (⟨S1600000, .i32⟩ : BufTy).Contents (Elt F)) :
    val_main_v36 (F := F) x0 x1 x2 = val_main_v19 (F := F) x0 x1 x2 := by
  unfold val_main_v36 val_main_v35 val_main_v34 val_main_cst_8 val_main_v33 val_main_v32 val_main_v31 val_main_v30 val_main_v29
    val_main_c_7 val_main_v28 val_main_v27 val_main_c_6 val_main_v26 val_main_v25
    val_main_v19 val_main_v18 val_main_v17 val_main_cst_4 val_main_v16 val_main_v15 val_main_v14 val_main_v13
    val_main_v12 val_main_c_3 val_main_v11 val_main_v10 val_main_c val_main_v9 val_main_v8
  rfl

end AnyValues

/-- The column index of an entry's row, in the reference's spelling. -/
theorem col_idx (i : S100000x32.Idx) : Prescale.colOf i = idx_main_v8 i :=
  funext fun a => match a with | ⟨0, _⟩ => rfl | ⟨1, _⟩ => rfl

variable (x0 : (⟨S100000x32, .f32⟩ : BufTy).Contents (Elt Ideal)) (x1 x2 : (⟨S1600000, .i32⟩ : BufTy).Contents (Elt Ideal))

/-- The kernel's scaled table is the reference's product with the broadcast column. -/
theorem scaled_eq : Prescale.scaled x0 (val_main_v7 (F := Ideal) x2) = val_main_v9 (F := Ideal) x0 x2 := by
  funext i
  rw [val_main_v9_apply, val_main_v8_apply]
  exact congrArg (fun k => FloatOps.mulf (F := Ideal) (x0 i) (val_main_v7 (F := Ideal) x2 k)) (col_idx i)

/-- The reference's result at an index: twice the product of the two Bernstein factors. -/
theorem ref_apply (i : S100000x32.Idx) :
    val_main_v45 (F := Ideal) x0 x1 x2 i
      = Ideal.ofBits .f32 0x40000000#32
          * (Ideal.div (x0 i - val_main_v19 (F := Ideal) x0 x1 x2 i * val_main_v7 (F := Ideal) x2 (idx_main_v8 i)) (Ideal.ofBits .f32 0x40000000#32)
            * (x0 i - Ideal.div (x0 i - val_main_v19 (F := Ideal) x0 x1 x2 i * val_main_v7 (F := Ideal) x2 (idx_main_v8 i)) (Ideal.ofBits .f32 0x40000000#32))) := by
  rw [val_main_v45_apply, val_main_v44_apply, val_main_cst_10_apply, val_main_v43_apply, val_main_v24_apply, val_main_v22_apply,
    val_main_v21_apply, val_main_v20_apply, val_main_v23_apply, val_main_cst_5_apply, val_main_v42_apply, val_main_v41_apply,
    val_main_v39_apply, val_main_v38_apply, val_main_v37_apply, val_main_v40_apply, val_main_cst_9_apply, second_copy]
  rfl

/-- THE BRIDGE: for a feature table of real numbers, the kernel's result array is the reference's result. -/
theorem result_eq (hreal : ∀ i, ∃ r : ℝ, x0 i = (r : EReal)) :
    Combine.combined x0 (edgeSum (Prescale.scaled x0 (invSqrtDeg x2)) x1 x2) (invSqrtDeg x2)
      = val_main_v45 (F := Ideal) x0 x1 x2 := by
  rw [col_eq, scaled_eq, sum_eq]
  funext i
  rw [ref_apply]
  obtain ⟨f, hf⟩ := hreal i
  show (x0 i * x0 i - (val_main_v19 (F := Ideal) x0 x1 x2 i * val_main_v7 (F := Ideal) x2 (Prescale.colOf i))
        * (val_main_v19 (F := Ideal) x0 x1 x2 i * val_main_v7 (F := Ideal) x2 (Prescale.colOf i))) * Ideal.ofBits .f32 0x3F000000#32 = _
  rw [col_idx, hf, CombineLaw.ofBits_two, CombineLaw.ofBits_half]
  exact (CombineLaw.two_mul_factors f _).symm

end Cert.ResultEq

end
-- ==== Proof.FiniteFeatures.lean ====
/-
  What the precondition gives: every entry of the feature table is a real number.

  The precondition's predicate is `all (|x| < +∞)` over the feature table, an `and`-reduction of the entrywise
  comparison down to one word. If that word is one, the comparison holds at every entry; on the extended reals
  `|x| = max x (-x)`, and `max x (-x) < ⊤` excludes both `x = ⊤` and `x = ⊥`.
-/
import proofs.«126729_j42502996361881_1_alg».proof.Pre_finite_inputs
import Idealize.ShloMosaic.Lib.ReduceAll
import Idealize.ShloMosaic.PureOps.Ideal

noncomputable section

namespace Cert.FiniteFeatures

open Idealize.ShloMosaic Cert.Pre_finite_inputs

instance : Subsingleton S_.Idx := ⟨fun a b => funext fun d => d.elim0⟩

/-- The pattern of `+∞` denotes `⊤`. -/
theorem ofBits_inf : Ideal.ofBits .f32 0x7F800000#32 = ⊤ := by simp [Ideal.ofBits, Ideal.ieee]

/-- If the precondition's predicate is all ones, every entry of the feature table is a real number. -/
theorem real_of_pre [Cert.Pre_finite_inputs.Facts] (x : FVec Ideal S100000x32 .f32) (a1 a2 : IVec S1600000 32)
    (h : fn (F := Ideal) x a1 a2 = fun _ => 1#1) (i : S100000x32.Idx) : ∃ r : ℝ, x i = (r : EReal) := by
  have h0 := congrFun h (fun a => a.elim0)
  dsimp only [fn] at h0
  have hi := Host.reduce_andi_all _ _ _ _ _ h0 i
  change BitVec.ofBool (decide (max (x i) (-(x i)) < Ideal.ofBits .f32 0x7F800000#32)) = 1#1 at hi
  rw [ofBits_inf] at hi
  have hlt : max (x i) (-(x i)) < ⊤ := by
    by_contra hn
    rw [decide_eq_false hn] at hi
    exact absurd hi (by decide)
  have hne_top : x i ≠ ⊤ := fun e => by rw [e] at hlt; simp at hlt
  have hne_bot : x i ≠ ⊥ := fun e => by rw [e] at hlt; simp at hlt
  exact ⟨(x i).toReal, (EReal.coe_toReal hne_top hne_bot).symm⟩

end Cert.FiniteFeatures

end
-- ==== Proof.lean ====
/-
  Bernstein graph convolution of order two, index one: the kernel against its reference, on the extended reals.

  Both programs first compute `d = max(deg, 1)^(-1/2)` from the edges' destinations (`deg` the in-degree, a
  scatter-add of ones) and apply the normalised adjacency `M x = (Σ_{e : dst e = ·} (x * d)[src e]) * d`.
  The reference forms `temp = (feat - M feat) / 2` and `h = feat - (feat - M feat) / 2` and returns `2 * (temp * h)`.
  The kernel scales the features in one Pallas region (`feat * d`, twenty blocks of 5000 rows), gathers and
  scatter-adds on the host, and in a second region returns `(feat * feat - b * b) * (1/2)` with `b = agg * d`.

  The proof: the kernel's run ends with its result buffer at the last boundary's contents (NamedRun); each region's
  output array is one whole-array function of the arrays it found, block by block and by the cover (PrescaleValue,
  CombineValue over Payloads); the host stretches between them are read as two pure functions (HostTerms, FoldHost),
  which gives the result array as a function of the three arguments (FoldValue). The reference's run and its
  stages are the generated ones. The two functions agree entry by entry (ResultEq): they share the column and the
  edge sum, and the remaining identity `2 * (((f - B) / 2) * (f - (f - B) / 2)) = (f * f - B * B) * (1/2)` holds for
  every real `f` and every extended real `B` (CombineLaw); `f` is real by the precondition (FiniteFeatures).
-/
import proofs.«126729_j42502996361881_1_alg».proof.Defs
import proofs.«126729_j42502996361881_1_alg».proof.Proof.Gen.Kernel
import proofs.«126729_j42502996361881_1_alg».proof.Proof.Gen.Kernel.Skeleton
import proofs.«126729_j42502996361881_1_alg».proof.Proof.Gen.Kernel.Launch
import proofs.«126729_j42502996361881_1_alg».proof.Proof.Gen.Kernel.Points
import proofs.«126729_j42502996361881_1_alg».proof.Proof.Gen.Kernel.Frame
import proofs.«126729_j42502996361881_1_alg».proof.Proof.Gen.KernelIdeal
import proofs.«126729_j42502996361881_1_alg».proof.Proof.Gen.KernelIdeal.Skeleton
import proofs.«126729_j42502996361881_1_alg».proof.Proof.Gen.KernelIdeal.Launch
import proofs.«126729_j42502996361881_1_alg».proof.Proof.Gen.KernelIdeal.Points
import proofs.«126729_j42502996361881_1_alg».proof.Proof.Gen.KernelIdeal.Frame
import proofs.«126729_j42502996361881_1_alg».proof.Proof.Gen.ReferenceIdeal
import proofs.«126729_j42502996361881_1_alg».proof.Proof.Gen.ReferenceIdeal.Run
import proofs.«126729_j42502996361881_1_alg».proof.Proof.Gen.ReferenceIdeal.Read
import proofs.«126729_j42502996361881_1_alg».proof.Proof.Gen.Pre_finite_inputs
import proofs.«126729_j42502996361881_1_alg».proof.Proof.NamedRun
import proofs.«126729_j42502996361881_1_alg».proof.Proof.FoldValue
import proofs.«126729_j42502996361881_1_alg».proof.Proof.ResultEq
import proofs.«126729_j42502996361881_1_alg».proof.Proof.FiniteFeatures
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with a finite feature table, both programs end with the same result
    array: the kernel's at its function of the arguments (FoldValue), the reference's at its run's term, which is
    that function (ResultEq). -/
theorem algebraic : Cert.algebraic_KernelIdeal_ReferenceIdeal := by
  intro m ρ m' ρ' hpre hagree
  refine ⟨fun c => Cert.KernelIdeal.Gen.W6 m ρ c (Proc.devRef .tc Cert.KernelIdeal.main_v19),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2]
  exact ((Cert.KernelIdeal.Fold.result m ρ c).trans
    (Cert.ResultEq.result_eq _ _ _ (Cert.FiniteFeatures.real_of_pre _ _ _ (hpre c)))).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
